-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S8192x2048, .f32⟩
  | .hbm, ⟨7, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x2048.size a
  hwx0_0 : ∀ i : grid0.Coords, EltTy.bits .f32 = 32 ∨ (Rect.block (s := S8192x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x2048.size a
  hwx0_2 : ∀ i : grid0.Coords, EltTy.bits .bf16 = 32 ∨ (Rect.block (s := S2048x2048) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x2048.size a
  hwx0_3 : ∀ i : grid0.Coords, EltTy.bits .bf16 = 32 ∨ (Rect.block (s := S2048x2048) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x2048.size a
  hwx0_4 : ∀ i : grid0.Coords, EltTy.bits .f32 = 32 ∨ (Rect.block (s := S8192x2048) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x2048.size a
  hwx0_5 : ∀ i : grid0.Coords, EltTy.bits .f32 = 32 ∨ (Rect.block (s := S8192x2048) S1024x1024.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Pieces.lean ====
/-
  What one grid point leaves behind, as values.

  The body keeps two running blocks (the real and the imaginary part of a 1024×1024 tile of the product) in two scratch
  buffers.  At a point it loads a 1024×256 slab of the left operand's two parts and a 256×1024 slab of the right
  operand's two parts, forms the slab's contribution, and stores "old running block + contribution" back: the real part's
  contribution is `t₁ − t₂`, the imaginary part's `t₃ − t₁ − t₂` (the payload terms `k0_pay7`, `k0_pay8`).  Three kinds
  of point differ only in where the old running block comes from and where the new one also goes:
    * the first point of a run of eight (the reduction coordinate is 0) first stores zeros, so the old block is zero;
    * a middle point continues from what the point before left;
    * the last point of the run (the reduction coordinate is 7) continues likewise and then copies both running blocks
      to the two output blocks.
  Each lemma reads the stores found for one buffer in one kind of point back as that one term.
-/
import proofs.«114938_j46986942218954_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg3 : Memref sig .tc .vmem S1024x256 .f32) (harg3 : arg3.IsWhole)
  (arg4 : Memref sig .tc .vmem S1024x256 .f32) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S1024x1024 .f32) (harg7 : arg7.IsWhole)
  (arg8 : Memref sig .tc .vmem S1024x1024 .f32) (harg8 : arg8.IsWhole) (arg9 : Memref sig .tc .vmem S1024x1024 .f32) (harg9 : arg9.IsWhole)
  (arg10 : Memref sig .tc .vmem S1024x1024 .f32) (harg10 : arg10.IsWhole)
  (x0 x1 : Vec F S1024x256 .f32) (x2 x3 : Vec F S256x1024 .bf16) (xs0 xs1 : Vec F S1024x1024 .f32)

/-! ## A middle point: running block plus the slab's contribution -/

theorem scratchRe_mid (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  rw [View.canon_unit_zero hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

theorem scratchIm_mid (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1)]
  unfold kernelRun0_B
  dsimp only
  rw [View.canon_unit_zero hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

/-! ## The last point of a run: the same, and both outputs are copies of the running blocks -/

theorem scratchRe_last (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

theorem scratchIm_last (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

theorem outRe_last (hc0 : ¬cond0_0 i) (hc1 : cond0_1 i) :
    out0_C_4 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

theorem outIm_last (hc0 : ¬cond0_0 i) (hc1 : cond0_1 i) :
    out0_C_5 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

/-! ## The first point of a run: the running block starts from the stored zeros -/

theorem scratchRe_first (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 = k0_pay7 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

theorem scratchIm_first (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 = k0_pay8 x0 x1 x2 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg9.read_unread, harg10.read_unread, View.ld_unit_zero (S := S1024x256) hz, View.ld_unit_zero (S := S256x1024) hz,
    View.ld_unit_zero (S := S1024x1024) hz]

end Cert.KernelIdeal.Pieces

end
-- ==== Proof.LibPartialSums.lean ====
/-
  Partial sums of a finite sequence, tile by tile, in any commutative additive monoid (and the squared difference
  of two extended reals, the term summed here).  A finite sequence `a : Fin N → M` is continued by zeros to all
  naturals, so that its partial sums can be taken over `Finset.range`; the partial sum over the first `j + 1` tiles
  of width `w` is the partial sum over the first `j` tiles plus the sum over tile `j`, the partial sum over no tile
  is zero, and the partial sum over all `N` terms is the sum of the sequence.  This is the arithmetic of an
  accumulator that a grid carries across the steps of a reduction axis.
-/
import Mathlib.Algebra.BigOperators.Fin
import Mathlib.Algebra.BigOperators.Intervals
import Mathlib.Data.EReal.Operations

open Finset

namespace Cert.SumLaws

variable {M : Type*} [AddCommMonoid M]

/-- The squared difference of two extended reals. -/
noncomputable def sqd (a b : EReal) : EReal := (a - b) * (a - b)

/-- A finite sequence continued by zeros. -/
def padded {N : ℕ} (a : Fin N → M) (q : ℕ) : M := if h : q < N then a ⟨q, h⟩ else 0

theorem padded_of_lt {N : ℕ} (a : Fin N → M) {q : ℕ} (h : q < N) : padded a q = a ⟨q, h⟩ := dif_pos h

/-- The partial sum over everything is the sum. -/
theorem sum_range_padded {N : ℕ} (a : Fin N → M) : ∑ q ∈ range N, padded a q = ∑ q : Fin N, a q := by
  rw [Finset.sum_range]
  exact Finset.sum_congr rfl fun q _ => padded_of_lt a q.isLt

/-- One more tile: the terms `w·j, …, w·j + w - 1` are added. -/
theorem sum_range_tile_succ {N : ℕ} (a : Fin N → M) (w j : ℕ) (h : w * (j + 1) ≤ N) :
    ∑ q ∈ range (w * (j + 1)), padded a q
      = ∑ q ∈ range (w * j), padded a q
        + ∑ k : Fin w, a ⟨w * j + k.val, lt_of_lt_of_le (by rw [Nat.mul_succ]; exact Nat.add_lt_add_left k.isLt _) h⟩ := by
  refine (congrArg (fun n => ∑ q ∈ range n, padded a q) (Nat.mul_succ w j)).trans ?_
  rw [Finset.sum_range_add, Finset.sum_range (fun x => padded a (w * j + x))]
  exact congrArg _ (Finset.sum_congr rfl fun k _ => padded_of_lt a _)

/-- No tile yet: the empty sum. -/
theorem sum_range_tile_zero {N : ℕ} (a : Fin N → M) (w : ℕ) : ∑ q ∈ range (w * 0), padded a q = 0 := by
  rw [Nat.mul_zero, Finset.range_zero, Finset.sum_empty]

/-- The same when the tile count is known to be zero. -/
theorem sum_range_tile_of_eq_zero {N : ℕ} (a : Fin N → M) (w j : ℕ) (hj : j = 0) :
    ∑ q ∈ range (w * j), padded a q = 0 := by
  subst hj; exact sum_range_tile_zero a w

end Cert.SumLaws
-- ==== Proof.Spec.lean ====
/-
  The complex matrix product `(Xr + i·Xi) · (Wr + i·Wi)` of real arrays, as a specification.

  `Xr, Xi` are 8192×2048 and `Wr, Wi` are 2048×2048 arrays of real numbers.  Entry `(P, Q)` of the product has real part
  `∑_κ (Xr[P,κ]·Wr[κ,Q] − Xi[P,κ]·Wi[κ,Q])` and imaginary part `∑_κ (Xi[P,κ]·Wr[κ,Q] + Xr[P,κ]·Wi[κ,Q])`, `κ` running over
  the 2048 positions of the contracted axis.  The contracted axis is cut into eight slabs of 256 positions; the partial
  sums over the first `j` slabs grow one slab at a time, start at zero and end at the whole sum.  A position on a 8×2×8
  grid of steps, numbered `n = (I·2 + J)·8 + j`, works on the 1024×1024 tile `(I, J)` of the product and on slab `j`.
-/
import proofs.«114938_j46986942218954_2_alg».proof.Proof.LibPartialSums
import Idealize.ShloMosaic.Lib.ValueIdx

noncomputable section

namespace Cert.Dft

open Idealize.ShloMosaic Idealize.ShloMosaic.ValueIdx Cert.SumLaws Finset

abbrev SX : Shape := ⟨2, ![8192, 2048]⟩
abbrev SW : Shape := ⟨2, ![2048, 2048]⟩

variable (Xr Xi : SX.Idx → ℝ) (Wr Wi : SW.Idx → ℝ)

/-- Position `κ`'s term of the real part of entry `(P, Q)`. -/
def termRe (P : Fin 8192) (Q : Fin 2048) (κ : Fin 2048) : ℝ :=
  Xr (ix2 P κ) * Wr (ix2 κ Q) - Xi (ix2 P κ) * Wi (ix2 κ Q)

/-- Position `κ`'s term of the imaginary part of entry `(P, Q)`. -/
def termIm (P : Fin 8192) (Q : Fin 2048) (κ : Fin 2048) : ℝ :=
  Xi (ix2 P κ) * Wr (ix2 κ Q) + Xr (ix2 P κ) * Wi (ix2 κ Q)

/-- The real part of the product, as an array of extended reals. -/
def Zre : SX.Idx → EReal := fun i => ((∑ κ, termRe Xr Xi Wr Wi (i 0) (i 1) κ : ℝ) : EReal)

/-- The imaginary part of the product, as an array of extended reals. -/
def Zim : SX.Idx → EReal := fun i => ((∑ κ, termIm Xr Xi Wr Wi (i 0) (i 1) κ : ℝ) : EReal)

/-- The real part's partial sum over the first `j` slabs. -/
def partRe (j : ℕ) (P : Fin 8192) (Q : Fin 2048) : ℝ := ∑ κ ∈ range (256 * j), padded (termRe Xr Xi Wr Wi P Q) κ

/-- The imaginary part's partial sum over the first `j` slabs. -/
def partIm (j : ℕ) (P : Fin 8192) (Q : Fin 2048) : ℝ := ∑ κ ∈ range (256 * j), padded (termIm Xr Xi Wr Wi P Q) κ

/-! ## Step `n` of the grid: its tile's rows and columns, its slab's positions -/

/-- Row `p` of step `n`'s tile, in the whole array. -/
def rowOf (n : ℕ) (p : Fin 1024) : Fin 8192 := ⟨1024 * (n / 16 % 8) + p.val, by have := p.isLt; omega⟩

/-- Column `q` of step `n`'s tile, in the whole array. -/
def colOf (n : ℕ) (q : Fin 1024) : Fin 2048 := ⟨1024 * (n / 8 % 2) + q.val, by have := q.isLt; omega⟩

/-- Position `k` of step `n`'s slab, on the contracted axis. -/
def slabOf (n : ℕ) (k : Fin 256) : Fin 2048 := ⟨256 * (n % 8) + k.val, by have := k.isLt; omega⟩

/-- Within a run of eight steps the tile does not move. -/
theorem rowOf_succ (n : ℕ) (h : (n + 1) % 8 ≠ 0) (p : Fin 1024) : rowOf (n + 1) p = rowOf n p :=
  Fin.ext (by show 1024 * ((n + 1) / 16 % 8) + p.val = 1024 * (n / 16 % 8) + p.val; omega)

theorem colOf_succ (n : ℕ) (h : (n + 1) % 8 ≠ 0) (q : Fin 1024) : colOf (n + 1) q = colOf n q :=
  Fin.ext (by show 1024 * ((n + 1) / 8 % 2) + q.val = 1024 * (n / 8 % 2) + q.val; omega)

/-! ## The partial sums, slab by slab -/

/-- One more slab: step `n`'s slab is added to the partial sum over the slabs before it. -/
theorem partRe_next (n : ℕ) (P : Fin 8192) (Q : Fin 2048) :
    partRe Xr Xi Wr Wi (n % 8 + 1) P Q
      = partRe Xr Xi Wr Wi (n % 8) P Q + ∑ k : Fin 256, termRe Xr Xi Wr Wi P Q (slabOf n k) :=
  sum_range_tile_succ (termRe Xr Xi Wr Wi P Q) 256 (n % 8) (by omega)

theorem partIm_next (n : ℕ) (P : Fin 8192) (Q : Fin 2048) :
    partIm Xr Xi Wr Wi (n % 8 + 1) P Q
      = partIm Xr Xi Wr Wi (n % 8) P Q + ∑ k : Fin 256, termIm Xr Xi Wr Wi P Q (slabOf n k) :=
  sum_range_tile_succ (termIm Xr Xi Wr Wi P Q) 256 (n % 8) (by omega)

/-- Before the first slab of a run the partial sum is zero. -/
theorem partRe_first (n : ℕ) (h : n % 8 = 0) (P : Fin 8192) (Q : Fin 2048) : partRe Xr Xi Wr Wi (n % 8) P Q = 0 :=
  sum_range_tile_of_eq_zero (termRe Xr Xi Wr Wi P Q) 256 (n % 8) h

theorem partIm_first (n : ℕ) (h : n % 8 = 0) (P : Fin 8192) (Q : Fin 2048) : partIm Xr Xi Wr Wi (n % 8) P Q = 0 :=
  sum_range_tile_of_eq_zero (termIm Xr Xi Wr Wi P Q) 256 (n % 8) h

/-- After the eighth slab it is the whole sum. -/
theorem partRe_all (P : Fin 8192) (Q : Fin 2048) : partRe Xr Xi Wr Wi 8 P Q = ∑ κ, termRe Xr Xi Wr Wi P Q κ :=
  sum_range_padded (termRe Xr Xi Wr Wi P Q)

theorem partIm_all (P : Fin 8192) (Q : Fin 2048) : partIm Xr Xi Wr Wi 8 P Q = ∑ κ, termIm Xr Xi Wr Wi P Q κ :=
  sum_range_padded (termIm Xr Xi Wr Wi P Q)

end Cert.Dft

end
-- ==== Proof.Blocks.lean ====
/-
  The grid's geometry, and what each kind of step leaves in the running blocks.

  Step `t` (of 128) has tile row `t / 16`, tile column `(t / 8) mod 2` and slab `t mod 8`.  Its left-operand blocks are
  rows `1024·(t/16) + p`, positions `256·(t mod 8) + k` of the two left arrays; its right-operand blocks are positions
  `256·(t mod 8) + k`, columns `1024·((t/8) mod 2) + q` of the two right arrays (whose change of float format before
  the grid is the identity on extended reals); its output blocks are tile `(t/16, (t/8) mod 2)` of the two results.
  What the running blocks hold after a step is the step's payload term of its blocks and of what the step before left
  (zeros at the first step of a run of eight); at the last step of a run the output blocks hold the same.
-/
import proofs.«114938_j46986942218954_2_alg».proof.Proof.Gen.KernelIdeal.Frame
import proofs.«114938_j46986942218954_2_alg».proof.Proof.Pieces
import proofs.«114938_j46986942218954_2_alg».proof.Proof.Spec
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Pieces Cert.Dft

variable (m : (ℓ : Loc nD τ sig) → Buf (Elt Ideal) ℓ) (c : Dev nD)

/-- The index maps, decided over the grid: tile row, tile column and slab of each step. -/
theorem idx_facts : ∀ t : Fin cfg0.N,
    win0_0.index t (0 : Fin 2) = t.val / 16 % 8 ∧ win0_0.index t (1 : Fin 2) = t.val % 8
    ∧ win0_1.index t (0 : Fin 2) = t.val / 16 % 8 ∧ win0_1.index t (1 : Fin 2) = t.val % 8
    ∧ win0_2.index t (0 : Fin 2) = t.val % 8 ∧ win0_2.index t (1 : Fin 2) = t.val / 8 % 2
    ∧ win0_3.index t (0 : Fin 2) = t.val % 8 ∧ win0_3.index t (1 : Fin 2) = t.val / 8 % 2
    ∧ win0_4.index t (0 : Fin 2) = t.val / 16 % 8 ∧ win0_4.index t (1 : Fin 2) = t.val / 8 % 2
    ∧ win0_5.index t (0 : Fin 2) = t.val / 16 % 8 ∧ win0_5.index t (1 : Fin 2) = t.val / 8 % 2 :=
  (by decide +kernel : ∀ t : Fin grid0.N, _)

/-- The change of float format of the right operand's real part before the grid is the identity. -/
theorem V_wr : (V m c main_v0 : S2048x2048.Idx → Ideal .bf16)
    = (m ((c : Thread nD τ).loc main_arg2) : S2048x2048.Idx → Ideal .f32) := by
  dsimp only [V, hostOps0]; after_results; rfl

/-- Likewise of its imaginary part. -/
theorem V_wi : (V m c main_v1 : S2048x2048.Idx → Ideal .bf16)
    = (m ((c : Thread nD τ).loc main_arg3) : S2048x2048.Idx → Ideal .f32) := by
  dsimp only [V, hostOps0]; after_results; rfl

/-- Step `t`'s block of the left operand's real part, at `(p, k)`. -/
theorem blkXr (t : Fin cfg0.N) (p : Fin 1024) (k : Fin 256) :
    (iblk m c 0 t : Vec Ideal S1024x256 .f32) (ix2 p k)
      = (m ((c : Thread nD τ).loc main_arg0) : S8192x2048.Idx → Ideal .f32) (ix2 (rowOf t.val p) (slabOf t.val k)) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = 1024 * (t.val / 16 % 8) + p.val; omega
  | ⟨1, _⟩ => show win0_0.index t (1 : Fin 2) * 256 + 1 * k.val = 256 * (t.val % 8) + k.val; omega

/-- Step `t`'s block of the left operand's imaginary part, at `(p, k)`. -/
theorem blkXi (t : Fin cfg0.N) (p : Fin 1024) (k : Fin 256) :
    (iblk m c 1 t : Vec Ideal S1024x256 .f32) (ix2 p k)
      = (m ((c : Thread nD τ).loc main_arg1) : S8192x2048.Idx → Ideal .f32) (ix2 (rowOf t.val p) (slabOf t.val k)) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * p.val = 1024 * (t.val / 16 % 8) + p.val; omega
  | ⟨1, _⟩ => show win0_1.index t (1 : Fin 2) * 256 + 1 * k.val = 256 * (t.val % 8) + k.val; omega

/-- Step `t`'s block of the right operand's real part, at `(k, q)`. -/
theorem blkWr (t : Fin cfg0.N) (k : Fin 256) (q : Fin 1024) :
    (iblk m c 2 t : Vec Ideal S256x1024 .bf16) (ix2 k q)
      = (m ((c : Thread nD τ).loc main_arg2) : S2048x2048.Idx → Ideal .f32) (ix2 (slabOf t.val k) (colOf t.val q)) := by
  obtain ⟨-, -, -, -, e0, e1, -⟩ := idx_facts t
  unfold iblk
  rw [View.read_apply]
  show (V m c main_v0 : S2048x2048.Idx → Ideal .bf16) _ = _
  rw [V_wr]
  refine congrArg _ (funext fun a => Fin.ext ?_)
  match a with
  | ⟨0, _⟩ => show win0_2.index t (0 : Fin 2) * 256 + 1 * k.val = 256 * (t.val % 8) + k.val; omega
  | ⟨1, _⟩ => show win0_2.index t (1 : Fin 2) * 1024 + 1 * q.val = 1024 * (t.val / 8 % 2) + q.val; omega

/-- Step `t`'s block of the right operand's imaginary part, at `(k, q)`. -/
theorem blkWi (t : Fin cfg0.N) (k : Fin 256) (q : Fin 1024) :
    (iblk m c 3 t : Vec Ideal S256x1024 .bf16) (ix2 k q)
      = (m ((c : Thread nD τ).loc main_arg3) : S2048x2048.Idx → Ideal .f32) (ix2 (slabOf t.val k) (colOf t.val q)) := by
  obtain ⟨-, -, -, -, -, -, e0, e1, -⟩ := idx_facts t
  unfold iblk
  rw [View.read_apply]
  show (V m c main_v1 : S2048x2048.Idx → Ideal .bf16) _ = _
  rw [V_wi]
  refine congrArg _ (funext fun a => Fin.ext ?_)
  match a with
  | ⟨0, _⟩ => show win0_3.index t (0 : Fin 2) * 256 + 1 * k.val = 256 * (t.val % 8) + k.val; omega
  | ⟨1, _⟩ => show win0_3.index t (1 : Fin 2) * 1024 + 1 * q.val = 1024 * (t.val / 8 % 2) + q.val; omega

/-! ## What each kind of step leaves -/

/-- The first step of a run: the running blocks are the payload terms over the stored zeros. -/
theorem outs_first (t : Fin cfg0.N) (h0 : t.val % 8 = 0) (h1 : ¬t.val % 8 = 7) :
    (outsAt0 m c t.val t.isLt).2.2.1 = k0_pay7 (F := Ideal) (iblk m c 0 t) (iblk m c 1 t) (iblk m c 2 t) (iblk m c 3 t) (k0_pay1 (F := Ideal))
    ∧ (outsAt0 m c t.val t.isLt).2.2.2 = k0_pay8 (F := Ideal) (iblk m c 0 t) (iblk m c 1 t) (iblk m c 2 t) (iblk m c 3 t) (k0_pay2 (F := Ideal)) := by
  rw [outsAt0_A m c t h0 h1]
  dsimp only
  exact ⟨scratchRe_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)),
    scratchIm_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))⟩

/-- A middle step: the payload terms over what the step before left. -/
theorem outs_mid (t : Fin cfg0.N) (h0 : ¬t.val % 8 = 0) (h1 : ¬t.val % 8 = 7) :
    (outsAt0 m c t.val t.isLt).2.2.1 = k0_pay7 (F := Ideal) (iblk m c 0 t) (iblk m c 1 t) (iblk m c 2 t) (iblk m c 3 t) (outsAt0 m c (t.val - 1) (Nat.lt_of_le_of_lt (Nat.sub_le _ _) t.isLt)).2.2.1
    ∧ (outsAt0 m c t.val t.isLt).2.2.2 = k0_pay8 (F := Ideal) (iblk m c 0 t) (iblk m c 1 t) (iblk m c 2 t) (iblk m c 3 t) (outsAt0 m c (t.val - 1) (Nat.lt_of_le_of_lt (Nat.sub_le _ _) t.isLt)).2.2.2 := by
  rw [outsAt0_B m c t h0 h1]
  dsimp only
  exact ⟨scratchRe_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    scratchIm_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))⟩

/-- The last step of a run: the same, and the two output blocks are copies of the running blocks. -/
theorem outs_last (t : Fin cfg0.N) (h0 : ¬t.val % 8 = 0) (h1 : t.val % 8 = 7) :
    (outsAt0 m c t.val t.isLt).1 = k0_pay7 (F := Ideal) (iblk m c 0 t) (iblk m c 1 t) (iblk m c 2 t) (iblk m c 3 t) (outsAt0 m c (t.val - 1) (Nat.lt_of_le_of_lt (Nat.sub_le _ _) t.isLt)).2.2.1
    ∧ (outsAt0 m c t.val t.isLt).2.1 = k0_pay8 (F := Ideal) (iblk m c 0 t) (iblk m c 1 t) (iblk m c 2 t) (iblk m c 3 t) (outsAt0 m c (t.val - 1) (Nat.lt_of_le_of_lt (Nat.sub_le _ _) t.isLt)).2.2.2
    ∧ (outsAt0 m c t.val t.isLt).2.2.1 = k0_pay7 (F := Ideal) (iblk m c 0 t) (iblk m c 1 t) (iblk m c 2 t) (iblk m c 3 t) (outsAt0 m c (t.val - 1) (Nat.lt_of_le_of_lt (Nat.sub_le _ _) t.isLt)).2.2.1
    ∧ (outsAt0 m c t.val t.isLt).2.2.2 = k0_pay8 (F := Ideal) (iblk m c 0 t) (iblk m c 1 t) (iblk m c 2 t) (iblk m c 3 t) (outsAt0 m c (t.val - 1) (Nat.lt_of_le_of_lt (Nat.sub_le _ _) t.isLt)).2.2.2 := by
  rw [outsAt0_C m c t h0 h1]
  dsimp only
  exact ⟨outRe_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    outIm_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    scratchRe_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    scratchIm_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)⟩

end Cert.KernelIdeal.Blocks

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibGaussLaw.lean ====
/-
  Sums of products of real numbers, read inside the extended reals, and the two accumulation laws of a complex
  matrix product computed from three real products (Gauss's trick).

  Write a complex number as a pair of reals.  For real sequences `a, c` (the real and imaginary parts of a row) and
  `b, d` (those of a column), the product's real part is `∑ (a·b − c·d)` and its imaginary part `∑ (c·b + a·d)`.
  Three products suffice: with `t₁ = ∑ a·b`, `t₂ = ∑ c·d`, `t₃ = ∑ (a + c)·(b + d)`, the real part is `t₁ − t₂` and
  the imaginary part `t₃ − t₁ − t₂`, because `(a + c)(b + d) − ab − cd = cb + ad` term by term.  Over the extended
  reals these identities need every entry to be a real number (a difference of two infinite sums is not the sum of the
  differences), which is why all statements here are about embeddings `(x : ℝ) ↦ (x : EReal)`.
-/
import Mathlib.Data.EReal.Operations
import Mathlib.Algebra.BigOperators.Fin
import Mathlib.Algebra.BigOperators.Intervals
import Mathlib.Tactic.Ring

open Finset

namespace Cert.Gauss

variable {ι : Type*}

/-- The embedding of a finite sum of reals is the sum of the embeddings. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable [Fintype ι]

/-- An inner product of embedded reals is the embedded inner product. -/
theorem dot_coe (a b : ι → ℝ) : ∑ k, (a k : EReal) * (b k : EReal) = ((∑ k, a k * b k : ℝ) : EReal) := by
  rw [coe_sum]
  exact Finset.sum_congr rfl fun k _ => (EReal.coe_mul _ _).symm

/-- The inner product of the sums of two pairs of embedded sequences. -/
theorem dot_add_coe (a b c d : ι → ℝ) :
    ∑ k, ((a k : EReal) + (c k : EReal)) * ((b k : EReal) + (d k : EReal))
      = ((∑ k, (a k + c k) * (b k + d k) : ℝ) : EReal) := by
  rw [coe_sum]
  refine Finset.sum_congr rfl fun k _ => ?_
  rw [← EReal.coe_add, ← EReal.coe_add, ← EReal.coe_mul]

/-- REAL PART, one more slab: a real running value plus `t₁ − t₂` of the slab is the running value plus the slab's
    sum of `a·b − c·d`. -/
theorem re_step (s : ℝ) (a b c d : ι → ℝ) :
    (s : EReal) + ((∑ k, (a k : EReal) * (b k : EReal)) - ∑ k, (c k : EReal) * (d k : EReal))
      = ((s + ∑ k, (a k * b k - c k * d k) : ℝ) : EReal) := by
  rw [dot_coe, dot_coe, ← EReal.coe_sub, ← EReal.coe_add, Finset.sum_sub_distrib]

/-- IMAGINARY PART, one more slab: a real running value plus `t₃ − t₁ − t₂` of the slab is the running value plus the
    slab's sum of `c·b + a·d`. -/
theorem im_step (s : ℝ) (a b c d : ι → ℝ) :
    (s : EReal) + (((∑ k, ((a k : EReal) + (c k : EReal)) * ((b k : EReal) + (d k : EReal)))
        - ∑ k, (a k : EReal) * (b k : EReal)) - ∑ k, (c k : EReal) * (d k : EReal))
      = ((s + ∑ k, (c k * b k + a k * d k) : ℝ) : EReal) := by
  rw [dot_add_coe, dot_coe, dot_coe, ← EReal.coe_sub, ← EReal.coe_sub, ← EReal.coe_add,
    ← Finset.sum_sub_distrib, ← Finset.sum_sub_distrib]
  refine congrArg (fun x : ℝ => ((s + x : ℝ) : EReal)) (Finset.sum_congr rfl fun k _ => ?_)
  ring

/-- REAL PART, all at once: the difference of the two whole inner products. -/
theorem re_whole (a b c d : ι → ℝ) :
    (∑ k, (a k : EReal) * (b k : EReal)) - ∑ k, (c k : EReal) * (d k : EReal)
      = ((∑ k, (a k * b k - c k * d k) : ℝ) : EReal) := by
  rw [dot_coe, dot_coe, ← EReal.coe_sub, Finset.sum_sub_distrib]

/-- IMAGINARY PART, all at once: the sum of the two whole cross products. -/
theorem im_whole (a b c d : ι → ℝ) :
    (∑ k, (c k : EReal) * (b k : EReal)) + ∑ k, (a k : EReal) * (d k : EReal)
      = ((∑ k, (c k * b k + a k * d k) : ℝ) : EReal) := by
  rw [dot_coe, dot_coe, ← EReal.coe_add, Finset.sum_add_distrib]

end Cert.Gauss
-- ==== Proof.PayloadAt.lean ====
/-
  The two payload terms of a grid point, read at one entry over the extended reals.

  With `xr, xi` the 1024×256 slabs of the left operand's parts, `wr, wi` the 256×1024 slabs of the right operand's parts
  and `acc` the old running block, the real part's new running block at `(p, q)` is
      acc[p,q] + ( ∑ₖ xr[p,k]·wr[k,q]  −  ∑ₖ xi[p,k]·wi[k,q] )
  and the imaginary part's
      acc[p,q] + ( ( ∑ₖ (xr[p,k] + xi[p,k])·(wr[k,q] + wi[k,q])  −  ∑ₖ xr[p,k]·wr[k,q] )  −  ∑ₖ xi[p,k]·wi[k,q] ):
  a change of float format is the identity on extended reals, a matrix product into a zero accumulator is the plain sum
  over the contracted axis, and the rest is entrywise.  When every entry involved is a real number these are the
  accumulation laws of the Gauss three-product form (LibGaussLaw.lean).
-/
import proofs.«114938_j46986942218954_2_alg».proof.Proof.Gen.KernelIdeal.Skeleton
import proofs.«114938_j46986942218954_2_alg».proof.Proof.LibPlainMatmul
import proofs.«114938_j46986942218954_2_alg».proof.Proof.LibGaussLaw
import Idealize.ShloMosaic.Lib.Pipeline.Value
import Idealize.ShloMosaic.Lib.ValueIdx
import Idealize.ShloMosaic.PureOps.Ideal.Laws

noncomputable section

namespace Cert.KernelIdeal.PayloadAt

open Idealize.ShloMosaic Idealize.ShloMosaic.ValueIdx Idealize.ShloMosaic.PlainMatmul
open Cert.KernelIdeal Cert.KernelIdeal.Gen

variable (xr xi : Vec Ideal S1024x256 .f32) (wr wi : Vec Ideal S256x1024 .bf16) (acc : Vec Ideal S1024x1024 .f32)
  (p q : Fin 1024)

/-- `t₁` at `(p, q)`: the slab product of the real parts. -/
theorem t1_at : k0_pay5 (F := Ideal) xr wr (ix2 p q) = ∑ k : Fin 256, xr (ix2 p k) * wr (ix2 k q) := by
  unfold k0_pay5 k0_pay3
  rw [shapeCast_self]
  exact matmul_plain_apply dot_S1024x256_S256x1024_S1024x1024_1_0_0_1_n_n rfl rfl rfl rfl rfl rfl none _ _ p q

/-- `t₂` at `(p, q)`: the slab product of the imaginary parts. -/
theorem t2_at : k0_pay6 (F := Ideal) xi wi (ix2 p q) = ∑ k : Fin 256, xi (ix2 p k) * wi (ix2 k q) := by
  unfold k0_pay6 k0_pay4
  rw [shapeCast_self]
  exact matmul_plain_apply dot_S1024x256_S256x1024_S1024x1024_1_0_0_1_n_n rfl rfl rfl rfl rfl rfl none _ _ p q

/-- The real part's new running block at `(p, q)`. -/
theorem payRe_at : k0_pay7 (F := Ideal) xr xi wr wi acc (ix2 p q)
    = acc (ix2 p q) + ((∑ k : Fin 256, xr (ix2 p k) * wr (ix2 k q)) - ∑ k : Fin 256, xi (ix2 p k) * wi (ix2 k q)) := by
  unfold k0_pay7
  rw [shapeCast_self]
  show acc (ix2 p q) + (k0_pay5 (F := Ideal) xr wr (ix2 p q) - k0_pay6 (F := Ideal) xi wi (ix2 p q)) = _
  rw [t1_at, t2_at]

/-- The imaginary part's new running block at `(p, q)`. -/
theorem payIm_at : k0_pay8 (F := Ideal) xr xi wr wi acc (ix2 p q)
    = acc (ix2 p q) + (((∑ k : Fin 256, (xr (ix2 p k) + xi (ix2 p k)) * (wr (ix2 k q) + wi (ix2 k q)))
        - ∑ k : Fin 256, xr (ix2 p k) * wr (ix2 k q)) - ∑ k : Fin 256, xi (ix2 p k) * wi (ix2 k q)) := by
  unfold k0_pay8
  rw [shapeCast_self]
  have t3 : FloatOps.matmul dot_S1024x256_S256x1024_S1024x1024_1_0_0_1_n_n none
      (truncf .bf16 (addf xr xi) bitsLt_bf16_f32) (addf (k0_pay3 (F := Ideal) wr) (k0_pay4 (F := Ideal) wi))
      (constant S1024x1024 .f32 0x00000000#32) (ix2 p q)
      = ∑ k : Fin 256, (xr (ix2 p k) + xi (ix2 p k)) * (wr (ix2 k q) + wi (ix2 k q)) := by
    unfold k0_pay3 k0_pay4
    rw [shapeCast_self, shapeCast_self]
    exact matmul_plain_apply dot_S1024x256_S256x1024_S1024x1024_1_0_0_1_n_n rfl rfl rfl rfl rfl rfl none _ _ p q
  show acc (ix2 p q) + ((FloatOps.matmul dot_S1024x256_S256x1024_S1024x1024_1_0_0_1_n_n none
      (truncf .bf16 (addf xr xi) bitsLt_bf16_f32) (addf (k0_pay3 (F := Ideal) wr) (k0_pay4 (F := Ideal) wi))
      (constant S1024x1024 .f32 0x00000000#32) (ix2 p q) - k0_pay5 (F := Ideal) xr wr (ix2 p q))
      - k0_pay6 (F := Ideal) xi wi (ix2 p q)) = _
  rw [t3, t1_at, t2_at]

/-! ## With real entries: the accumulation laws -/

variable (s : ℝ) (a c : Fin 256 → ℝ) (b d : Fin 256 → ℝ)

/-- When the old entry and the slabs' entries on row `p` and column `q` are reals, the real part's new entry is the
    old one plus the slab's `∑ (a·b − c·d)`. -/
theorem payRe_real (hacc : acc (ix2 p q) = (s : EReal)) (hxr : ∀ k, xr (ix2 p k) = (a k : EReal))
    (hxi : ∀ k, xi (ix2 p k) = (c k : EReal)) (hwr : ∀ k, wr (ix2 k q) = (b k : EReal))
    (hwi : ∀ k, wi (ix2 k q) = (d k : EReal)) :
    k0_pay7 (F := Ideal) xr xi wr wi acc (ix2 p q) = ((s + ∑ k, (a k * b k - c k * d k) : ℝ) : EReal) := by
  rw [payRe_at, hacc]
  simp only [hxr, hxi, hwr, hwi]
  exact Cert.Gauss.re_step s a b c d

/-- Likewise the imaginary part's new entry is the old one plus the slab's `∑ (c·b + a·d)`. -/
theorem payIm_real (hacc : acc (ix2 p q) = (s : EReal)) (hxr : ∀ k, xr (ix2 p k) = (a k : EReal))
    (hxi : ∀ k, xi (ix2 p k) = (c k : EReal)) (hwr : ∀ k, wr (ix2 k q) = (b k : EReal))
    (hwi : ∀ k, wi (ix2 k q) = (d k : EReal)) :
    k0_pay8 (F := Ideal) xr xi wr wi acc (ix2 p q) = ((s + ∑ k, (c k * b k + a k * d k) : ℝ) : EReal) := by
  rw [payIm_at, hacc]
  simp only [hxr, hxi, hwr, hwi]
  exact Cert.Gauss.im_step s a b c d

/-- The stored zeros are the real number zero. -/
theorem zeroRe_at : k0_pay1 (F := Ideal) (ix2 p q) = ((0 : ℝ) : EReal) := by
  unfold k0_pay1
  rw [shapeCast_self]
  show Ideal.ofBits .f32 0x00000000#32 = _
  rw [Ideal.ofBits_zero_f32, EReal.coe_zero]

theorem zeroIm_at : k0_pay2 (F := Ideal) (ix2 p q) = ((0 : ℝ) : EReal) := by
  unfold k0_pay2
  rw [shapeCast_self]
  show Ideal.ofBits .f32 0x00000000#32 = _
  rw [Ideal.ofBits_zero_f32, EReal.coe_zero]

end Cert.KernelIdeal.PayloadAt

end
-- ==== Proof.Running.lean ====
/-
  The running blocks are the partial sums of the complex product, step by step.

  Suppose every entry of the four arguments is a real number.  After step `n` the real running block holds, at `(p, q)`,
  the partial sum over slabs `0 … n mod 8` of the real part of entry `(row p, column q)` of step `n`'s tile, and the
  imaginary running block the same for the imaginary part: by induction on the step — a first step of a run adds its
  slab to zero, any other step adds its slab to what the step before left, and within a run the tile does not move.  At
  the last step of a run (slab 7) the partial sums are the whole sums, and the output blocks, copies of the running
  blocks, hold the product's entries.
-/
import proofs.«114938_j46986942218954_2_alg».proof.Proof.Blocks
import proofs.«114938_j46986942218954_2_alg».proof.Proof.PayloadAt

noncomputable section

namespace Cert.KernelIdeal.Running

open Idealize.ShloMosaic Idealize.ShloMosaic.TcCoe Idealize.SL.Sem Idealize.ShloMosaic.ValueIdx
open Cert.KernelIdeal Cert.KernelIdeal.Gen Cert.KernelIdeal.Blocks Cert.KernelIdeal.PayloadAt Cert.Dft

variable (m : (ℓ : Loc nD τ sig) → Buf (Elt Ideal) ℓ) (c : Dev nD)
variable (Xr Xi : SX.Idx → ℝ) (Wr Wi : SW.Idx → ℝ)

/-- The four arguments, on core `c`, are the embeddings of four arrays of real numbers. -/
structure RealArgs : Prop where
  xr : ∀ i, (m ((c : Thread nD τ).loc main_arg0) : S8192x2048.Idx → Ideal .f32) i = ((Xr i : ℝ) : EReal)
  xi : ∀ i, (m ((c : Thread nD τ).loc main_arg1) : S8192x2048.Idx → Ideal .f32) i = ((Xi i : ℝ) : EReal)
  wr : ∀ i, (m ((c : Thread nD τ).loc main_arg2) : S2048x2048.Idx → Ideal .f32) i = ((Wr i : ℝ) : EReal)
  wi : ∀ i, (m ((c : Thread nD τ).loc main_arg3) : S2048x2048.Idx → Ideal .f32) i = ((Wi i : ℝ) : EReal)

variable {m c Xr Xi Wr Wi}

/-- One step of the real part: a real old entry `s` becomes `s` plus the step's slab of terms. -/
theorem stepRe (H : RealArgs m c Xr Xi Wr Wi) (t : Fin cfg0.N) (p q : Fin 1024) (acc : Vec Ideal S1024x1024 .f32) (s : ℝ)
    (hacc : acc (ix2 p q) = ((s : ℝ) : EReal)) :
    k0_pay7 (F := Ideal) (iblk m c 0 t) (iblk m c 1 t) (iblk m c 2 t) (iblk m c 3 t) acc (ix2 p q)
      = ((s + ∑ k : Fin 256, termRe Xr Xi Wr Wi (rowOf t.val p) (colOf t.val q) (slabOf t.val k) : ℝ) : EReal) :=
  payRe_real (iblk m c 0 t) (iblk m c 1 t) (iblk m c 2 t) (iblk m c 3 t) acc p q s
    (fun k => Xr (ix2 (rowOf t.val p) (slabOf t.val k))) (fun k => Xi (ix2 (rowOf t.val p) (slabOf t.val k)))
    (fun k => Wr (ix2 (slabOf t.val k) (colOf t.val q))) (fun k => Wi (ix2 (slabOf t.val k) (colOf t.val q)))
    hacc (fun k => (blkXr m c t p k).trans (H.xr _)) (fun k => (blkXi m c t p k).trans (H.xi _))
    (fun k => (blkWr m c t k q).trans (H.wr _)) (fun k => (blkWi m c t k q).trans (H.wi _))

/-- One step of the imaginary part. -/
theorem stepIm (H : RealArgs m c Xr Xi Wr Wi) (t : Fin cfg0.N) (p q : Fin 1024) (acc : Vec Ideal S1024x1024 .f32) (s : ℝ)
    (hacc : acc (ix2 p q) = ((s : ℝ) : EReal)) :
    k0_pay8 (F := Ideal) (iblk m c 0 t) (iblk m c 1 t) (iblk m c 2 t) (iblk m c 3 t) acc (ix2 p q)
      = ((s + ∑ k : Fin 256, termIm Xr Xi Wr Wi (rowOf t.val p) (colOf t.val q) (slabOf t.val k) : ℝ) : EReal) :=
  payIm_real (iblk m c 0 t) (iblk m c 1 t) (iblk m c 2 t) (iblk m c 3 t) acc p q s
    (fun k => Xr (ix2 (rowOf t.val p) (slabOf t.val k))) (fun k => Xi (ix2 (rowOf t.val p) (slabOf t.val k)))
    (fun k => Wr (ix2 (slabOf t.val k) (colOf t.val q))) (fun k => Wi (ix2 (slabOf t.val k) (colOf t.val q)))
    hacc (fun k => (blkXr m c t p k).trans (H.xr _)) (fun k => (blkXi m c t p k).trans (H.xi _))
    (fun k => (blkWr m c t k q).trans (H.wr _)) (fun k => (blkWi m c t k q).trans (H.wi _))

/-- A step that is not the first of its run continues the partial sums of the step before. -/
theorem partRe_cont (n : ℕ) (h0 : ¬(n + 1) % 8 = 0) (p q : Fin 1024) :
    partRe Xr Xi Wr Wi (n % 8 + 1) (rowOf n p) (colOf n q)
      + ∑ k : Fin 256, termRe Xr Xi Wr Wi (rowOf (n + 1) p) (colOf (n + 1) q) (slabOf (n + 1) k)
      = partRe Xr Xi Wr Wi ((n + 1) % 8 + 1) (rowOf (n + 1) p) (colOf (n + 1) q) := by
  have e : (n + 1) % 8 = n % 8 + 1 := by omega
  rw [rowOf_succ n h0, colOf_succ n h0, partRe_next Xr Xi Wr Wi (n + 1), e]

theorem partIm_cont (n : ℕ) (h0 : ¬(n + 1) % 8 = 0) (p q : Fin 1024) :
    partIm Xr Xi Wr Wi (n % 8 + 1) (rowOf n p) (colOf n q)
      + ∑ k : Fin 256, termIm Xr Xi Wr Wi (rowOf (n + 1) p) (colOf (n + 1) q) (slabOf (n + 1) k)
      = partIm Xr Xi Wr Wi ((n + 1) % 8 + 1) (rowOf (n + 1) p) (colOf (n + 1) q) := by
  have e : (n + 1) % 8 = n % 8 + 1 := by omega
  rw [rowOf_succ n h0, colOf_succ n h0, partIm_next Xr Xi Wr Wi (n + 1), e]

/-- A first step of a run starts the partial sums. -/
theorem partRe_start (n : ℕ) (h0 : n % 8 = 0) (p q : Fin 1024) :
    (0 : ℝ) + ∑ k : Fin 256, termRe Xr Xi Wr Wi (rowOf n p) (colOf n q) (slabOf n k)
      = partRe Xr Xi Wr Wi (n % 8 + 1) (rowOf n p) (colOf n q) := by
  rw [partRe_next, partRe_first Xr Xi Wr Wi n h0]

theorem partIm_start (n : ℕ) (h0 : n % 8 = 0) (p q : Fin 1024) :
    (0 : ℝ) + ∑ k : Fin 256, termIm Xr Xi Wr Wi (rowOf n p) (colOf n q) (slabOf n k)
      = partIm Xr Xi Wr Wi (n % 8 + 1) (rowOf n p) (colOf n q) := by
  rw [partIm_next, partIm_first Xr Xi Wr Wi n h0]

/-- THE INVARIANT: after step `n` the two running blocks hold the partial sums over the slabs so far. -/
theorem running (H : RealArgs m c Xr Xi Wr Wi) : ∀ (n : ℕ) (h : n < cfg0.N) (p q : Fin 1024),
    (outsAt0 m c n h).2.2.1 (ix2 p q) = ((partRe Xr Xi Wr Wi (n % 8 + 1) (rowOf n p) (colOf n q) : ℝ) : EReal)
    ∧ (outsAt0 m c n h).2.2.2 (ix2 p q) = ((partIm Xr Xi Wr Wi (n % 8 + 1) (rowOf n p) (colOf n q) : ℝ) : EReal)
  | 0, h, p, q => by
    obtain ⟨e0, e1⟩ := outs_first m c ⟨0, h⟩ rfl (by show ¬0 % 8 = 7; omega)
    refine ⟨?_, ?_⟩
    · rw [e0, stepRe H ⟨0, h⟩ p q _ 0 (zeroRe_at p q)]
      exact congrArg _ (partRe_start 0 rfl p q)
    · rw [e1, stepIm H ⟨0, h⟩ p q _ 0 (zeroIm_at p q)]
      exact congrArg _ (partIm_start 0 rfl p q)
  | n + 1, h, p, q => by
    have hN : n + 1 < 128 := lt_of_lt_of_eq h (show cfg0.N = 128 from N_0)
    by_cases h0 : (n + 1) % 8 = 0
    · obtain ⟨e0, e1⟩ := outs_first m c ⟨n + 1, h⟩ h0 (by show ¬(n + 1) % 8 = 7; omega)
      refine ⟨?_, ?_⟩
      · rw [e0, stepRe H ⟨n + 1, h⟩ p q _ 0 (zeroRe_at p q)]
        exact congrArg _ (partRe_start (n + 1) h0 p q)
      · rw [e1, stepIm H ⟨n + 1, h⟩ p q _ 0 (zeroIm_at p q)]
        exact congrArg _ (partIm_start (n + 1) h0 p q)
    · obtain ⟨i0, i1⟩ := running H n (Nat.lt_of_succ_lt h) p q
      have e : (outsAt0 m c (n + 1) h).2.2.1 = k0_pay7 (F := Ideal) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.1
          ∧ (outsAt0 m c (n + 1) h).2.2.2 = k0_pay8 (F := Ideal) (iblk m c 0 ⟨n + 1, h⟩) (iblk m c 1 ⟨n + 1, h⟩) (iblk m c 2 ⟨n + 1, h⟩) (iblk m c 3 ⟨n + 1, h⟩) (outsAt0 m c n (Nat.lt_of_succ_lt h)).2.2.2 := by
        by_cases h1 : (n + 1) % 8 = 7
        · exact ⟨(outs_last m c ⟨n + 1, h⟩ h0 h1).2.2.1, (outs_last m c ⟨n + 1, h⟩ h0 h1).2.2.2⟩
        · exact outs_mid m c ⟨n + 1, h⟩ h0 h1
      refine ⟨?_, ?_⟩
      · rw [e.1, stepRe H ⟨n + 1, h⟩ p q _ _ i0]
        exact congrArg _ (partRe_cont n h0 p q)
      · rw [e.2, stepIm H ⟨n + 1, h⟩ p q _ _ i1]
        exact congrArg _ (partIm_cont n h0 p q)

/-- At the last step of a run the output blocks hold the product's entries. -/
theorem outputs_last (H : RealArgs m c Xr Xi Wr Wi) (t : Fin cfg0.N) (h1 : t.val % 8 = 7) (p q : Fin 1024) :
    (outsAt0 m c t.val t.isLt).1 (ix2 p q) = Zre Xr Xi Wr Wi (ix2 (rowOf t.val p) (colOf t.val q))
    ∧ (outsAt0 m c t.val t.isLt).2.1 (ix2 p q) = Zim Xr Xi Wr Wi (ix2 (rowOf t.val p) (colOf t.val q)) := by
  have h0 : ¬t.val % 8 = 0 := by omega
  obtain ⟨o4, o5, s0, s1⟩ := outs_last m c t h0 h1
  obtain ⟨r0, r1⟩ := running H t.val t.isLt p q
  refine ⟨?_, ?_⟩
  · rw [o4, ← s0, r0, h1]
    exact congrArg _ (partRe_all Xr Xi Wr Wi _ _)
  · rw [o5, ← s1, r1, h1]
    exact congrArg _ (partIm_all Xr Xi Wr Wi _ _)

end Cert.KernelIdeal.Running

end
-- ==== Proof.Final.lean ====
/-
  From blocks to arrays.

  The two results are written back only at the last step of each run of eight, one 1024×1024 tile per run: tile
  `(I, J)` at step `(I·2 + J)·8 + 7`.  What is written back is the tile of the complex product (Running.lean), read through
  the block's rectangle, and the sixteen tiles cover the 8192×2048 arrays; so after the run the two result arrays hold the
  product's real and imaginary parts.
-/
import proofs.«114938_j46986942218954_2_alg».proof.Proof.Running
import proofs.«114938_j46986942218954_2_alg».proof.Proof.Gen.KernelIdeal.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Running Cert.Dft

variable {m : (ℓ : Loc nD τ sig) → Buf (Elt Ideal) ℓ} {c : Dev nD}
variable {Xr Xi : SX.Idx → ℝ} {Wr Wi : SW.Idx → ℝ}

/-- What a flushing step writes back to the real part's array is its tile of the product's real part. -/
theorem flushed4_eq (H : RealArgs m c Xr Xi Wr Wi) (t : Fin cfg0.N) (hf : (cfg0.win 4).flush t = true) :
    (dats m 0 c).flushed 4 t = ((cfg0.win 4).blk t).view.read (Elt Ideal) (Zre Xr Xi Wr Wi) := by
  have h1 : t.val % 8 = 7 := (flush0_4 t).mp hf
  obtain ⟨-, -, -, -, -, -, -, -, e0, e1, e2, e3⟩ := idx_facts t
  rw [Cert.KernelIdeal.Value.flushed4]
  funext y
  obtain ⟨p, q, rfl⟩ : ∃ (p q : Fin 1024), y = ix2 p q := ⟨y 0, y 1, eq_ix2 y⟩
  rw [View.read_apply]
  show (outsAt0 m c t.val t.isLt).1 (ix2 p q) = _
  rw [(outputs_last H t h1 p q).1]
  refine congrArg _ (funext fun a => Fin.ext ?_)
  match a with
  | ⟨0, _⟩ => show 1024 * (t.val / 16 % 8) + p.val = win0_4.index t (0 : Fin 2) * 1024 + 1 * p.val; omega
  | ⟨1, _⟩ => show 1024 * (t.val / 8 % 2) + q.val = win0_4.index t (1 : Fin 2) * 1024 + 1 * q.val; omega

/-- An entry of the array is in step `t`'s block iff each coordinate is in the block's range on its axis. -/
theorem mem_blk4 (t : Fin cfg0.N) (i : S8192x2048.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2_0).slice (win0_4.rect t)).set ↔ _
  rw [View.set_slice_whole, Rect.mem_set_unit]
  exact Iff.rfl

/-- Every entry lies in the block of a flushing step: the last step of the run of its tile. -/
theorem cover4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 128 := N_0
  refine ⟨⟨((i 0).val / 1024 * 2 + (i 1).val / 1024) * 8 + 7, by omega⟩, (flush0_4 _).mpr (by show (((i 0).val / 1024 * 2 + (i 1).val / 1024) * 8 + 7) % 8 = 7; omega), ?_⟩
  obtain ⟨-, -, -, -, -, -, -, -, e0, e1, e2, e3⟩ := idx_facts ⟨((i 0).val / 1024 * 2 + (i 1).val / 1024) * 8 + 7, by omega⟩
  rw [mem_blk4]
  intro a
  match a with
  | ⟨0, _⟩ =>
    show win0_4.index _ (0 : Fin 2) * 1024 ≤ (i 0).val ∧ (i 0).val < win0_4.index _ (0 : Fin 2) * 1024 + 1024
    rw [e0]; dsimp only; omega
  | ⟨1, _⟩ =>
    show win0_4.index _ (1 : Fin 2) * 1024 ≤ (i 1).val ∧ (i 1).val < win0_4.index _ (1 : Fin 2) * 1024 + 1024
    rw [e1]; dsimp only; omega

/-- So the real part's array ends holding the product's real part. -/
theorem final4 (H : RealArgs m c Xr Xi Wr Wi) : (dats m 0 c).arrAt 4 cfg0.N = Zre Xr Xi Wr Wi :=
  (dats m 0 c).arrAt_eq_of_cover 4 (Zre Xr Xi Wr Wi) (flushed4_eq H) cover4

/-- What a flushing step writes back to the imaginary part's array is its tile of the product's imaginary part. -/
theorem flushed5_eq (H : RealArgs m c Xr Xi Wr Wi) (t : Fin cfg0.N) (hf : (cfg0.win 5).flush t = true) :
    (dats m 0 c).flushed 5 t = ((cfg0.win 5).blk t).view.read (Elt Ideal) (Zim Xr Xi Wr Wi) := by
  have h1 : t.val % 8 = 7 := (flush0_5 t).mp hf
  obtain ⟨-, -, -, -, -, -, -, -, e0, e1, e2, e3⟩ := idx_facts t
  rw [Cert.KernelIdeal.Value.flushed5]
  funext y
  obtain ⟨p, q, rfl⟩ : ∃ (p q : Fin 1024), y = ix2 p q := ⟨y 0, y 1, eq_ix2 y⟩
  rw [View.read_apply]
  show (outsAt0 m c t.val t.isLt).2.1 (ix2 p q) = _
  rw [(outputs_last H t h1 p q).2]
  refine congrArg _ (funext fun a => Fin.ext ?_)
  match a with
  | ⟨0, _⟩ => show 1024 * (t.val / 16 % 8) + p.val = win0_5.index t (0 : Fin 2) * 1024 + 1 * p.val; omega
  | ⟨1, _⟩ => show 1024 * (t.val / 8 % 2) + q.val = win0_5.index t (1 : Fin 2) * 1024 + 1 * q.val; omega

/-- An entry of the array is in step `t`'s block iff each coordinate is in the block's range on its axis. -/
theorem mem_blk5 (t : Fin cfg0.N) (i : S8192x2048.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2_1).slice (win0_5.rect t)).set ↔ _
  rw [View.set_slice_whole, Rect.mem_set_unit]
  exact Iff.rfl

/-- Every entry lies in the block of a flushing step: the last step of the run of its tile. -/
theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 128 := N_0
  refine ⟨⟨((i 0).val / 1024 * 2 + (i 1).val / 1024) * 8 + 7, by omega⟩, (flush0_5 _).mpr (by show (((i 0).val / 1024 * 2 + (i 1).val / 1024) * 8 + 7) % 8 = 7; omega), ?_⟩
  obtain ⟨-, -, -, -, -, -, -, -, e0, e1, e2, e3⟩ := idx_facts ⟨((i 0).val / 1024 * 2 + (i 1).val / 1024) * 8 + 7, by omega⟩
  rw [mem_blk5]
  intro a
  match a with
  | ⟨0, _⟩ =>
    show win0_5.index _ (0 : Fin 2) * 1024 ≤ (i 0).val ∧ (i 0).val < win0_5.index _ (0 : Fin 2) * 1024 + 1024
    rw [e2]; dsimp only; omega
  | ⟨1, _⟩ =>
    show win0_5.index _ (1 : Fin 2) * 1024 ≤ (i 1).val ∧ (i 1).val < win0_5.index _ (1 : Fin 2) * 1024 + 1024
    rw [e3]; dsimp only; omega

/-- So the imaginary part's array ends holding the product's imaginary part. -/
theorem final5 (H : RealArgs m c Xr Xi Wr Wi) : (dats m 0 c).arrAt 5 cfg0.N = Zim Xr Xi Wr Wi :=
  (dats m 0 c).arrAt_eq_of_cover 5 (Zim Xr Xi Wr Wi) (flushed5_eq H) cover5

end Cert.KernelIdeal.Final

end
-- ==== Proof.RefSpec.lean ====
/-
  The reference computes the complex product from four whole real products.

  Its real part is `Xr·Wr − Xi·Wi` and its imaginary part `Xi·Wr + Xr·Wi`, each product a sum over the whole contracted
  axis.  When every entry is a real number the difference (the sum) of two such sums is the sum of the termwise
  differences (sums): entry by entry these are the specification's arrays.
-/
import proofs.«114938_j46986942218954_2_alg».proof.Proof.Gen.ReferenceIdeal.Read
import proofs.«114938_j46986942218954_2_alg».proof.Proof.Spec
import proofs.«114938_j46986942218954_2_alg».proof.Proof.LibGaussLaw

noncomputable section

namespace Cert.ReferenceIdeal.RefSpec

open Idealize.ShloMosaic Idealize.ShloMosaic.ValueIdx
open Cert.ReferenceIdeal Cert.ReferenceIdeal.Read Cert.Dft

/-- The left operand's index of a whole product at entry `i` and position `k` is `(i₀, k`), the right operand's `(k, i₁)`. -/
theorem lidx0 (i : S8192x2048.Idx) (k : Fin 2048) : lidx_main_v0 i k = ix2 (i 0) k :=
  funext fun a => Fin.ext (by match a with | ⟨0, _⟩ => rfl | ⟨1, _⟩ => rfl)
theorem ridx0 (i : S8192x2048.Idx) (k : Fin 2048) : ridx_main_v0 i k = ix2 k (i 1) :=
  funext fun a => Fin.ext (by match a with | ⟨0, _⟩ => rfl | ⟨1, _⟩ => rfl)
theorem lidx1 (i : S8192x2048.Idx) (k : Fin 2048) : lidx_main_v1 i k = ix2 (i 0) k :=
  funext fun a => Fin.ext (by match a with | ⟨0, _⟩ => rfl | ⟨1, _⟩ => rfl)
theorem ridx1 (i : S8192x2048.Idx) (k : Fin 2048) : ridx_main_v1 i k = ix2 k (i 1) :=
  funext fun a => Fin.ext (by match a with | ⟨0, _⟩ => rfl | ⟨1, _⟩ => rfl)
theorem lidx3 (i : S8192x2048.Idx) (k : Fin 2048) : lidx_main_v3 i k = ix2 (i 0) k :=
  funext fun a => Fin.ext (by match a with | ⟨0, _⟩ => rfl | ⟨1, _⟩ => rfl)
theorem ridx3 (i : S8192x2048.Idx) (k : Fin 2048) : ridx_main_v3 i k = ix2 k (i 1) :=
  funext fun a => Fin.ext (by match a with | ⟨0, _⟩ => rfl | ⟨1, _⟩ => rfl)
theorem lidx4 (i : S8192x2048.Idx) (k : Fin 2048) : lidx_main_v4 i k = ix2 (i 0) k :=
  funext fun a => Fin.ext (by match a with | ⟨0, _⟩ => rfl | ⟨1, _⟩ => rfl)
theorem ridx4 (i : S8192x2048.Idx) (k : Fin 2048) : ridx_main_v4 i k = ix2 k (i 1) :=
  funext fun a => Fin.ext (by match a with | ⟨0, _⟩ => rfl | ⟨1, _⟩ => rfl)

variable (x0 x1 : (⟨S8192x2048, .f32⟩ : BufTy).Contents (Elt Ideal)) (x2 x3 : (⟨S2048x2048, .f32⟩ : BufTy).Contents (Elt Ideal))
variable (Xr Xi : SX.Idx → ℝ) (Wr Wi : SW.Idx → ℝ)
variable (h0 : ∀ i, x0 i = ((Xr i : ℝ) : EReal)) (h1 : ∀ i, x1 i = ((Xi i : ℝ) : EReal))
  (h2 : ∀ i, x2 i = ((Wr i : ℝ) : EReal)) (h3 : ∀ i, x3 i = ((Wi i : ℝ) : EReal))

include h0 h1 h2 h3

/-- The reference's real part is the specification's. -/
theorem re_eq : val_main_v2 (F := Ideal) x0 x1 x2 x3 = Zre Xr Xi Wr Wi := by
  funext i
  rw [val_main_v2_apply, val_main_v0_apply, val_main_v1_apply]
  unfold Zre termRe
  refine Eq.trans (congrArg₂ (fun a b : EReal => a - b) (Finset.sum_congr rfl fun k _ => ?_) (Finset.sum_congr rfl fun k _ => ?_))
    (Cert.Gauss.re_whole (fun k => Xr (ix2 (i 0) k)) (fun k => Wr (ix2 k (i 1))) (fun k => Xi (ix2 (i 0) k))
      (fun k => Wi (ix2 k (i 1))))
  · exact congrArg₂ (fun a b : EReal => a * b) ((congrArg x0 (lidx0 i k)).trans (h0 _)) ((congrArg x2 (ridx0 i k)).trans (h2 _))
  · exact congrArg₂ (fun a b : EReal => a * b) ((congrArg x1 (lidx1 i k)).trans (h1 _)) ((congrArg x3 (ridx1 i k)).trans (h3 _))

/-- The reference's imaginary part is the specification's. -/
theorem im_eq : val_main_v5 (F := Ideal) x0 x1 x2 x3 = Zim Xr Xi Wr Wi := by
  funext i
  rw [val_main_v5_apply, val_main_v3_apply, val_main_v4_apply]
  unfold Zim termIm
  refine Eq.trans (congrArg₂ (fun a b : EReal => a + b) (Finset.sum_congr rfl fun k _ => ?_) (Finset.sum_congr rfl fun k _ => ?_))
    (Cert.Gauss.im_whole (fun k => Xr (ix2 (i 0) k)) (fun k => Wr (ix2 k (i 1))) (fun k => Xi (ix2 (i 0) k))
      (fun k => Wi (ix2 k (i 1))))
  · exact congrArg₂ (fun a b : EReal => a * b) ((congrArg x1 (lidx3 i k)).trans (h1 _)) ((congrArg x2 (ridx3 i k)).trans (h2 _))
  · exact congrArg₂ (fun a b : EReal => a * b) ((congrArg x0 (lidx4 i k)).trans (h0 _)) ((congrArg x3 (ridx4 i k)).trans (h3 _))

end Cert.ReferenceIdeal.RefSpec

end
-- ==== Proof.Finite.lean ====
/-
  The precondition says the arguments are arrays of real numbers.

  `finite_inputs` is the conjunction, over the four arguments, of "every entry `x` has `|x| < +∞`".  Over the extended reals
  `|x| = max x (−x)` is `+∞` at both infinities and `|r|` at a real `r`, so the comparison holds exactly at the reals:
  every entry of every argument is the embedding of a real number.
-/
import proofs.«114938_j46986942218954_2_alg».proof.Pre_finite_inputs
import proofs.«114938_j46986942218954_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Reals

open Idealize.ShloMosaic Cert.Pre_finite_inputs

instance : Subsingleton S_.Idx := ⟨fun a b => funext fun d => d.elim0⟩

/-- The word `0x7F800000` is `+∞`. -/
theorem inf_word : Ideal.ofBits .f32 0x7F800000#32 = (⊤ : EReal) := by simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

variable {a0 a1 : FVec Ideal S8192x2048 .f32} {a2 a3 : FVec Ideal S2048x2048 .f32}

/-- Under the precondition every entry of every argument is a real number. -/
theorem real_entries (h : fn (F := Ideal) a0 a1 a2 a3 = fun _ => 1#1) :
    (∀ i, ∃ r : ℝ, a0 i = (r : EReal)) ∧ (∀ i, ∃ r : ℝ, a1 i = (r : EReal))
    ∧ (∀ i, ∃ r : ℝ, a2 i = (r : EReal)) ∧ (∀ i, ∃ r : ℝ, a3 i = (r : EReal)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Pre_finite_inputs.Reals

end
-- ==== Proof.lean ====
/-
  The certificate of a complex matrix product computed tile by tile from three real products.

  The kernel multiplies `(Xr + i·Xi)` (8192×2048) by `(Wr + i·Wi)` (2048×2048) on an 8×2×8 grid: for each 1024×1024 tile
  of the result it walks the contracted axis in eight slabs of 256, keeping the tile's real and imaginary parts in two
  running blocks; a slab contributes `t₁ − t₂` to the real part and `t₃ − t₁ − t₂` to the imaginary part, where
  `t₁ = xr·wr`, `t₂ = xi·wi`, `t₃ = (xr + xi)·(wr + wi)` are the slab's three real products (Gauss's trick); after the
  eighth slab the running blocks are written out.  The reference forms the four whole real products and takes
  `Xr·Wr − Xi·Wi` and `Xi·Wr + Xr·Wi`.

  Over the extended reals a change of float format is the identity, so the only difference between the two programs is
  the arrangement of the sums, and the arrangements agree once every entry is a real number — which is what the
  precondition says (Finite.lean): differences and sums of finite real sums may be taken termwise, and
  `(a + c)(b + d) − ab − cd = cb + ad` (LibGaussLaw.lean).  Both programs end at the arrays of Spec.lean: the kernel because
  its running blocks are the partial sums slab by slab (Running.lean) and the sixteen tiles written out cover the result
  arrays (Final.lean), the reference entry by entry (RefSpec.lean).  The ideal pass rewrote nothing, so the kernel's
  idealization is its own text read over the extended reals; the three frames are the generated ones.
-/
import proofs.«114938_j46986942218954_2_alg».proof.Defs
import proofs.«114938_j46986942218954_2_alg».proof.Proof.Gen.Kernel
import proofs.«114938_j46986942218954_2_alg».proof.Proof.Gen.Kernel.Skeleton
import proofs.«114938_j46986942218954_2_alg».proof.Proof.Gen.Kernel.Launch
import proofs.«114938_j46986942218954_2_alg».proof.Proof.Gen.Kernel.Points
import proofs.«114938_j46986942218954_2_alg».proof.Proof.Gen.Kernel.Frame
import proofs.«114938_j46986942218954_2_alg».proof.Proof.Gen.KernelIdeal
import proofs.«114938_j46986942218954_2_alg».proof.Proof.Gen.KernelIdeal.Skeleton
import proofs.«114938_j46986942218954_2_alg».proof.Proof.Gen.KernelIdeal.Launch
import proofs.«114938_j46986942218954_2_alg».proof.Proof.Gen.KernelIdeal.Points
import proofs.«114938_j46986942218954_2_alg».proof.Proof.Gen.KernelIdeal.Frame
import proofs.«114938_j46986942218954_2_alg».proof.Proof.Gen.ReferenceIdeal
import proofs.«114938_j46986942218954_2_alg».proof.Proof.Gen.Pre_finite_inputs
import proofs.«114938_j46986942218954_2_alg».proof.Proof.Gen.KernelIdeal.Value
import proofs.«114938_j46986942218954_2_alg».proof.Proof.Gen.ReferenceIdeal.Run
import proofs.«114938_j46986942218954_2_alg».proof.Proof.Gen.ReferenceIdeal.Read
import proofs.«114938_j46986942218954_2_alg».proof.Proof.Final
import proofs.«114938_j46986942218954_2_alg».proof.Proof.RefSpec
import proofs.«114938_j46986942218954_2_alg».proof.Proof.Finite
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Over the extended reals, from memories agreeing on the four arguments, both programs end with the complex product's
    real and imaginary parts: the kernel's two result arrays after its run are the product (Final.lean), and the
    reference's two results are the same arrays entry by entry (RefSpec.lean) — the arguments being arrays of reals. -/
theorem algebraic : Cert.algebraic_KernelIdeal_ReferenceIdeal := by
  intro m ρ m' ρ' hpre hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    Cert.KernelIdeal.Value.run_blocks m ρ, ?_⟩
  refine (θ_run Cert.ReferenceIdeal.defs _ _).mono (fun _ h c => ?_) (Cert.ReferenceIdeal.Value.run (F := Ideal) m' ρ')
  obtain ⟨r0, r1, r2, r3⟩ := Cert.Pre_finite_inputs.Reals.real_entries (hpre c)
  choose Xr hXr using r0
  choose Xi hXi using r1
  choose Wr hWr using r2
  choose Wi hWi using r3
  have H : Cert.KernelIdeal.Running.RealArgs m c Xr Xi Wr Wi := ⟨hXr, hXi, hWr, hWi⟩
  have h0 : ∀ i, m' ((c.tc : Thread Cert.ReferenceIdeal.nD Cert.ReferenceIdeal.τ).loc Cert.ReferenceIdeal.main_arg0) i = ((Xr i : ℝ) : EReal) :=
    fun i => (congrFun (hagree c).1 i).trans (hXr i)
  have h1 : ∀ i, m' ((c.tc : Thread Cert.ReferenceIdeal.nD Cert.ReferenceIdeal.τ).loc Cert.ReferenceIdeal.main_arg1) i = ((Xi i : ℝ) : EReal) :=
    fun i => (congrFun (hagree c).2.1 i).trans (hXi i)
  have h2 : ∀ i, m' ((c.tc : Thread Cert.ReferenceIdeal.nD Cert.ReferenceIdeal.τ).loc Cert.ReferenceIdeal.main_arg2) i = ((Wr i : ℝ) : EReal) :=
    fun i => (congrFun (hagree c).2.2.1 i).trans (hWr i)
  have h3 : ∀ i, m' ((c.tc : Thread Cert.ReferenceIdeal.nD Cert.ReferenceIdeal.τ).loc Cert.ReferenceIdeal.main_arg3) i = ((Wi i : ℝ) : EReal) :=
    fun i => (congrFun (hagree c).2.2.2 i).trans (hWi i)
  exact ⟨(h c).1.trans (((Cert.ReferenceIdeal.Read.val_main_v2_eq _ _ _ _).trans
      (Cert.ReferenceIdeal.RefSpec.re_eq _ _ _ _ Xr Xi Wr Wi h0 h1 h2 h3)).trans (Cert.KernelIdeal.Final.final4 H).symm),
    (h c).2.1.trans (((Cert.ReferenceIdeal.Read.val_main_v5_eq _ _ _ _).trans
      (Cert.ReferenceIdeal.RefSpec.im_eq _ _ _ _ Xr Xi Wr Wi h0 h1 h2 h3)).trans (Cert.KernelIdeal.Final.final5 H).symm),
    (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
